-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S16384x1024 .f32) (main_arg1 : FVec F S16384x1024 .f32) (main_arg2 : FVec F S1024x1024 .f32) (main_arg3 : FVec F S1024 .f32) (main_arg4 : FVec F S1024x1024 .f32) (main_arg5 : FVec F S1024 .f32) (main_arg6 : FVec F S1024 .f32) (main_arg7 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1x16384 : Shape := ⟨2, ![1, 16384]⟩
abbrev S512x1024 : Shape := ⟨2, ![512, 1024]⟩
abbrev S1x512 : Shape := ⟨2, ![1, 512]⟩
abbrev S512 : Shape := ⟨1, ![512]⟩
abbrev S512x1 : Shape := ⟨2, ![512, 1]⟩
abbrev S16384 : Shape := ⟨1, ![16384]⟩

abbrev nBuf : Space → Nat
  | .hbm => 16
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x16384, .f32⟩
  | .hbm, ⟨15, _⟩ => ⟨S16384, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x512, .f32⟩
  | .local _ .vmem, ⟨11, _⟩ => ⟨S1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x16384_S16384 : S1x16384.ShapeCasts S16384
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x16384.size a
  hwx0_8 : ∀ i : grid0.Coords, EltTy.bits .f32 = 32 ∨ (Rect.block (s := S1x16384) S1x512.size (cc0_transform_8 i) (hinb0_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S16384x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384, .f32⟩
  | .hbm, ⟨66, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_call1_v0 : Ref sig .tc := ⟨.hbm, 55, rfl⟩
abbrev main_call1_cst : Ref sig .tc := ⟨.hbm, 56, rfl⟩
abbrev main_call1_v1 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S_S16384 : S_.BroadcastsInDim S16384 (![] : Fin 0 → Fin S16384.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Spec.lean ====
/-
  The mathematics both programs compute for one row, on the extended reals.

  A row x of the context passes through two affine layers with a rectifier between them, is centred and scaled
  to unit spread (with a small positive constant added to the mean square), scaled and shifted coordinate by
  coordinate, and is then compared with the row e of the episode bank by the cosine of their angle, each norm
  bounded below by a tiny positive constant.

  The two programs differ in one place only: one multiplies the centred entry by the reciprocal square root of
  the spread, the other divides it by the square root. For a spread v with 0 < v these agree on the extended
  reals: at a positive real both are the product with 1/√v, and at +∞ both are 0.  The spread is a mean of
  squares plus a positive constant; a square is never negative on the extended reals (the square of either
  infinity is +∞), so the spread is positive whatever the entries are, and no finiteness is needed.
-/
import Idealize.ShloMosaic.PureOps.Ideal

noncomputable section

namespace Cert.Spec

open Idealize.ShloMosaic

/-- Multiplying by the reciprocal square root of a positive extended real is dividing by its square root. -/
theorem mul_rsqrt_eq_div_sqrt (a v : EReal) (hv : 0 < v) : a * Ideal.rsqrt v = Ideal.div a (Ideal.sqrt v) := by
  induction v using EReal.rec with
  | bot => exact absurd hv (by simp)
  | top =>
    rw [Ideal.rsqrt_top, Ideal.sqrt_top, Ideal.div, if_neg (by simp), EReal.inv_top]
  | coe r =>
    have hr : 0 < r := by exact_mod_cast hv
    have hs : 0 < Real.sqrt r := Real.sqrt_pos.mpr hr
    rw [Ideal.rsqrt_coe, Ideal.sqrt_coe, if_neg (not_lt.mpr hr.le), if_neg hr.ne', if_neg (not_lt.mpr hr.le),
      Ideal.div, if_neg (by exact_mod_cast hs.ne'), EReal.coe_inv]

/-- A product of an extended real with itself is never negative. -/
theorem mul_self_nonneg' (a : EReal) : 0 ≤ a * a := by
  rcases le_total 0 a with h | h
  · exact mul_nonneg h h
  · have : a * a = (-a) * (-a) := by rw [neg_mul_neg]
    rw [this]
    exact mul_nonneg (EReal.neg_nonneg.mpr h) (EReal.neg_nonneg.mpr h)

/-- Dividing a non-negative extended real by a positive real leaves it non-negative. -/
theorem div_nonneg_of_pos {s n : EReal} (hs : 0 ≤ s) {N : ℝ} (hN : 0 < N) (hn : n = (N : EReal)) : 0 ≤ Ideal.div s n := by
  subst hn
  rw [Ideal.div_coe hN.ne']
  exact mul_nonneg hs (by exact_mod_cast (one_div_pos.mpr hN).le)

variable {ι : Type} [Fintype ι]

/-- The first layer with its rectifier: max(x·W₁ + b₁, z) at coordinate j (z the zero literal). -/
def hidden (z : EReal) (x : ι → EReal) (W1 : ι → ι → EReal) (b1 : ι → EReal) (j : ι) : EReal :=
  max ((∑ k, x k * W1 k j) + b1 j) z

/-- The second layer: hidden·W₂ + b₂ at coordinate j. -/
def pre (z : EReal) (x : ι → EReal) (W1 : ι → ι → EReal) (b1 : ι → EReal) (W2 : ι → ι → EReal) (b2 : ι → EReal) (j : ι) : EReal :=
  (∑ k, hidden z x W1 b1 k * W2 k j) + b2 j

/-- The mean of a row: its sum divided by n. -/
def mean (n : EReal) (h : ι → EReal) : EReal := Ideal.div (∑ j, h j) n

/-- The row with its mean taken off. -/
def centred (n : EReal) (h : ι → EReal) (j : ι) : EReal := h j - mean n h

/-- The spread: the mean square of the centred row, plus ε. -/
def spread (n eps : EReal) (h : ι → EReal) : EReal := Ideal.div (∑ j, centred n h j * centred n h j) n + eps

/-- The normalised row: each centred entry scaled by `nrm` of the spread, then times γ plus β. -/
def normed (nrm : EReal → EReal → EReal) (n eps : EReal) (h g bt : ι → EReal) (j : ι) : EReal :=
  nrm (centred n h j) (spread n eps h) * g j + bt j

/-- The cosine of two rows, each norm bounded below by `tiny`. -/
def cosine (tiny : EReal) (e c : ι → EReal) : EReal :=
  Ideal.div (∑ j, e j * c j)
    (max (Ideal.sqrt (∑ j, e j * e j)) tiny * max (Ideal.sqrt (∑ j, c j * c j)) tiny)

/-- One row's result. -/
def rowOut (nrm : EReal → EReal → EReal) (z n eps tiny : EReal) (x e : ι → EReal) (W1 : ι → ι → EReal) (b1 : ι → EReal)
    (W2 : ι → ι → EReal) (b2 g bt : ι → EReal) : EReal :=
  cosine tiny e (normed nrm n eps (pre z x W1 b1 W2 b2) g bt)

/-- Scaling by the reciprocal square root. -/
def byRsqrt (a v : EReal) : EReal := a * Ideal.rsqrt v
/-- Dividing by the square root. -/
def bySqrt (a v : EReal) : EReal := Ideal.div a (Ideal.sqrt v)

/-- The spread is positive: a sum of squares is non-negative, so is its quotient by a positive real, and ε is positive. -/
theorem spread_pos {n eps : EReal} {N : ℝ} (hN : 0 < N) (hn : n = (N : EReal)) (heps : 0 < eps) (h : ι → EReal) :
    0 < spread n eps h := by
  unfold spread
  have h0 : 0 ≤ Ideal.div (∑ j, centred n h j * centred n h j) n :=
    div_nonneg_of_pos (Finset.sum_nonneg fun j _ => mul_self_nonneg' _) hN hn
  calc (0 : EReal) < eps := heps
    _ = 0 + eps := (zero_add _).symm
    _ ≤ _ := add_le_add_left h0 eps

/-- The two ways of normalising give the same row result. -/
theorem rowOut_byRsqrt_eq_bySqrt {z n eps tiny : EReal} {N : ℝ} (hN : 0 < N) (hn : n = (N : EReal)) (heps : 0 < eps)
    (x e : ι → EReal) (W1 : ι → ι → EReal) (b1 : ι → EReal) (W2 : ι → ι → EReal) (b2 g bt : ι → EReal) :
    rowOut byRsqrt z n eps tiny x e W1 b1 W2 b2 g bt = rowOut bySqrt z n eps tiny x e W1 b1 W2 b2 g bt := by
  unfold rowOut
  congr 1
  funext j
  unfold normed byRsqrt bySqrt
  rw [mul_rsqrt_eq_div_sqrt _ _ (spread_pos hN hn heps _)]

end Cert.Spec

end
-- ==== Proof.Consts.lean ====
/-
  The two literals whose values the argument uses: the row length 1024 is the real number 1024, and the ε added
  to the mean square is a positive real.
-/
import Idealize.ShloMosaic.PureOps.Ideal

noncomputable section

namespace Cert.Consts

open Idealize.ShloMosaic

/-- The pattern 0x44800000 denotes 1024. -/
theorem ofBits_1024 : Ideal.ofBits .f32 0x44800000#32 = ((1024 : ℝ) : EReal) := by
  simp [Ideal.ofBits, Ideal.ieee, -EReal.coe_mul]
  norm_num

/-- The pattern 0x3727C5AC (about 1e-5) denotes a positive real. -/
theorem ofBits_eps_pos : (0 : EReal) < Ideal.ofBits .f32 0x3727C5AC#32 := by
  simp [Ideal.ofBits, Ideal.ieee, -EReal.coe_mul]

end Cert.Consts

end
-- ==== Proof.RefRow.lean ====
/-
  The reference, row by row.  Every stage of the host program is read at an index written by coordinates: an
  entry (r, j) of a matrix stage depends on row r of the context, on the weights and on the vectors only; a
  column stage (r, 0) on row r only; and the result at r is the cosine of row r of the episode bank with the
  normalised row r.  A broadcast vector reads its own entry j, a kept column its own row r, and a sum along a row,
  which the host starts from the zero literal, is the plain sum of the row's entries.
-/
import proofs.«116944_g9423158248250_cont_9to1_m_283_2_alg».proof.Proof.Gen.ReferenceIdeal.Read
import proofs.«116944_g9423158248250_cont_9to1_m_283_2_alg».proof.Proof.Spec
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx Cert.Spec

/-! ## The composed index functions at coordinates -/

section Indices
variable (r : Fin 16384) (j k : Fin 1024) (u : Fin 1)

theorem lidx_v0 : lidx_main_v0 (ix2 r j) k = ix2 r k := funext fun a => Fin.ext (by match a with | ⟨0, _⟩ => rfl | ⟨1, _⟩ => rfl)
theorem ridx_v0 : ridx_main_v0 (ix2 r j) k = ix2 k j := funext fun a => Fin.ext (by match a with | ⟨0, _⟩ => rfl | ⟨1, _⟩ => rfl)
theorem lidx_v6 : lidx_main_v6 (ix2 r j) k = ix2 r k := funext fun a => Fin.ext (by match a with | ⟨0, _⟩ => rfl | ⟨1, _⟩ => rfl)
theorem ridx_v6 : ridx_main_v6 (ix2 r j) k = ix2 k j := funext fun a => Fin.ext (by match a with | ⟨0, _⟩ => rfl | ⟨1, _⟩ => rfl)
theorem idx_v1 : idx_main_v1 (ix2 u j) = ix1 j := funext fun a => Fin.ext (by match a with | ⟨0, _⟩ => rfl)
theorem idx_v7 : idx_main_v7 (ix2 u j) = ix1 j := funext fun a => Fin.ext (by match a with | ⟨0, _⟩ => rfl)
theorem idx_v28 : idx_main_v28 (ix2 u j) = ix1 j := funext fun a => Fin.ext (by match a with | ⟨0, _⟩ => rfl)
theorem idx_v31 : idx_main_v31 (ix2 u j) = ix1 j := funext fun a => Fin.ext (by match a with | ⟨0, _⟩ => rfl)
theorem idx_v2 : idx_main_v2 (ix2 r j) = ix2 (0 : Fin 1) j := funext fun a => Fin.ext (by match a with | ⟨0, _⟩ => rfl | ⟨1, _⟩ => rfl)
theorem idx_v8 : idx_main_v8 (ix2 r j) = ix2 (0 : Fin 1) j := funext fun a => Fin.ext (by match a with | ⟨0, _⟩ => rfl | ⟨1, _⟩ => rfl)
theorem idx_v29 : idx_main_v29 (ix2 r j) = ix2 (0 : Fin 1) j := funext fun a => Fin.ext (by match a with | ⟨0, _⟩ => rfl | ⟨1, _⟩ => rfl)
theorem idx_v32 : idx_main_v32 (ix2 r j) = ix2 (0 : Fin 1) j := funext fun a => Fin.ext (by match a with | ⟨0, _⟩ => rfl | ⟨1, _⟩ => rfl)
theorem idx_v10 : idx_main_v10 (ix1 r) k = ix2 r k := funext fun a => Fin.ext (by match a with | ⟨0, _⟩ => rfl | ⟨1, _⟩ => rfl)
theorem idx_v17 : idx_main_v17 (ix1 r) k = ix2 r k := funext fun a => Fin.ext (by match a with | ⟨0, _⟩ => rfl | ⟨1, _⟩ => rfl)
theorem idx_v41 : idx_main_v41 (ix1 r) k = ix2 r k := funext fun a => Fin.ext (by match a with | ⟨0, _⟩ => rfl | ⟨1, _⟩ => rfl)
theorem idx_c0 : idx_main_call0_v1 (ix1 r) k = ix2 r k := funext fun a => Fin.ext (by match a with | ⟨0, _⟩ => rfl | ⟨1, _⟩ => rfl)
theorem idx_c1 : idx_main_call1_v1 (ix1 r) k = ix2 r k := funext fun a => Fin.ext (by match a with | ⟨0, _⟩ => rfl | ⟨1, _⟩ => rfl)
theorem idx_v11 : idx_main_v11 (ix2 r u) = ix1 r := funext fun a => Fin.ext (by match a with | ⟨0, _⟩ => rfl)
theorem idx_v18 : idx_main_v18 (ix2 r u) = ix1 r := funext fun a => Fin.ext (by match a with | ⟨0, _⟩ => rfl)
theorem idx_v14 : idx_main_v14 (ix2 r j) = ix2 r (0 : Fin 1) := funext fun a => Fin.ext (by match a with | ⟨0, _⟩ => rfl | ⟨1, _⟩ => rfl)
theorem idx_v21 : idx_main_v21 (ix2 r j) = ix2 r (0 : Fin 1) := funext fun a => Fin.ext (by match a with | ⟨0, _⟩ => rfl | ⟨1, _⟩ => rfl)
theorem idx_v26 : idx_main_v26 (ix2 r j) = ix2 r (0 : Fin 1) := funext fun a => Fin.ext (by match a with | ⟨0, _⟩ => rfl | ⟨1, _⟩ => rfl)

end Indices

/-! ## The literals -/

/-- The zero literal. -/
abbrev Z : EReal := Ideal.ofBits .f32 0x00000000#32
/-- The row length 1024 as a float literal. -/
abbrev NN : EReal := Ideal.ofBits .f32 0x44800000#32
/-- The ε added to the mean square. -/
abbrev EPS : EReal := Ideal.ofBits .f32 0x3727C5AC#32
/-- The lower bound of each norm. -/
abbrev TINY : EReal := Ideal.ofBits .f32 0x322BCC77#32

/-! ## The stages -/

variable (x0 x1 : (⟨S16384x1024, .f32⟩ : BufTy).Contents (Elt Ideal)) (x2 x4 : (⟨S1024x1024, .f32⟩ : BufTy).Contents (Elt Ideal))
  (x3 x5 x6 x7 : (⟨S1024, .f32⟩ : BufTy).Contents (Elt Ideal))

/-- Row r of a matrix argument. -/
abbrev rowOf (x : (⟨S16384x1024, .f32⟩ : BufTy).Contents (Elt Ideal)) (r : Fin 16384) : Fin 1024 → EReal := fun k => x (ix2 r k)
/-- A weight matrix by coordinates. -/
abbrev matOf (w : (⟨S1024x1024, .f32⟩ : BufTy).Contents (Elt Ideal)) : Fin 1024 → Fin 1024 → EReal := fun k j => w (ix2 k j)
/-- A vector argument by its coordinate. -/
abbrev vecOf (b : (⟨S1024, .f32⟩ : BufTy).Contents (Elt Ideal)) : Fin 1024 → EReal := fun j => b (ix1 j)

/-- The rectified first layer at (r, j). -/
theorem hidden_at (r : Fin 16384) (j : Fin 1024) :
    val_main_v5 (F := Ideal) x1 x2 x3 (ix2 r j) = hidden Z (rowOf x1 r) (matOf x2) (vecOf x3) j := by
  rw [val_main_v5_apply, val_main_v3_apply, val_main_v0_apply, val_main_v2_apply, val_main_v1_apply, val_main_v4_apply]
  simp only [lidx_v0, ridx_v0, idx_v2, idx_v1]
  rfl

/-- The second layer at (r, j). -/
theorem pre_at (r : Fin 16384) (j : Fin 1024) :
    val_main_v9 (F := Ideal) x1 x2 x3 x4 x5 (ix2 r j) = pre Z (rowOf x1 r) (matOf x2) (vecOf x3) (matOf x4) (vecOf x5) j := by
  rw [val_main_v9_apply, val_main_v6_apply, val_main_v8_apply, val_main_v7_apply]
  simp only [lidx_v6, ridx_v6, idx_v8, idx_v7, hidden_at]
  rfl

/-- Row r after the two layers. -/
abbrev H (x1 : (⟨S16384x1024, .f32⟩ : BufTy).Contents (Elt Ideal)) (x2 x4 : (⟨S1024x1024, .f32⟩ : BufTy).Contents (Elt Ideal))
    (x3 x5 : (⟨S1024, .f32⟩ : BufTy).Contents (Elt Ideal)) (r : Fin 16384) : Fin 1024 → EReal :=
  pre Z (rowOf x1 r) (matOf x2) (vecOf x3) (matOf x4) (vecOf x5)

/-- The row mean, kept as a column, at (r, 0). -/
theorem mean_at (r : Fin 16384) (u : Fin 1) :
    val_main_v13 (F := Ideal) x1 x2 x3 x4 x5 (ix2 r u) = mean NN (H x1 x2 x4 x3 x5 r) := by
  rw [val_main_v13_apply, val_main_v11_apply, val_main_v10_apply, val_main_v12_apply]
  simp only [idx_v11, idx_v10, pre_at]
  show Ideal.div (Ideal.ofBits .f32 0x00000000#32 + _) _ = _
  rw [Ideal.ofBits_zero_f32, zero_add]
  rfl

/-- The centred row at (r, j), as the variance reads it. -/
theorem centred_at (r : Fin 16384) (j : Fin 1024) :
    val_main_v15 (F := Ideal) x1 x2 x3 x4 x5 (ix2 r j) = centred NN (H x1 x2 x4 x3 x5 r) j := by
  rw [val_main_v15_apply, val_main_v14_apply]
  simp only [idx_v14, pre_at, mean_at]
  rfl

/-- The centred row at (r, j), as the quotient reads it: the same entry. -/
theorem centred_at' (r : Fin 16384) (j : Fin 1024) :
    val_main_v22 (F := Ideal) x1 x2 x3 x4 x5 (ix2 r j) = centred NN (H x1 x2 x4 x3 x5 r) j := by
  rw [val_main_v22_apply, val_main_v21_apply]
  simp only [idx_v21, pre_at, mean_at]
  rfl

/-- The spread of row r, kept as a column. -/
theorem spread_at (r : Fin 16384) (u : Fin 1) :
    val_main_v24 (F := Ideal) x1 x2 x3 x4 x5 (ix2 r u) = spread NN EPS (H x1 x2 x4 x3 x5 r) := by
  rw [val_main_v24_apply, val_main_v20_apply, val_main_v18_apply, val_main_v17_apply, val_main_v19_apply, val_main_v23_apply]
  simp only [idx_v18, idx_v17, val_main_v16_apply, centred_at]
  show Ideal.div (Ideal.ofBits .f32 0x00000000#32 + _) _ + _ = _
  rw [Ideal.ofBits_zero_f32, zero_add]
  rfl

/-- The normalised row at (r, j): the centred entry divided by the square root of the spread, times γ plus β. -/
theorem normed_at (r : Fin 16384) (j : Fin 1024) :
    val_main_v33 (F := Ideal) x1 x2 x3 x4 x5 x6 x7 (ix2 r j)
      = normed bySqrt NN EPS (H x1 x2 x4 x3 x5 r) (vecOf x6) (vecOf x7) j := by
  rw [val_main_v33_apply, val_main_v30_apply, val_main_v27_apply, val_main_v26_apply, val_main_v25_apply, val_main_v29_apply,
    val_main_v28_apply, val_main_v32_apply, val_main_v31_apply]
  simp only [idx_v26, idx_v29, idx_v28, idx_v32, idx_v31, centred_at', spread_at]
  rfl

/-- The result at r: the cosine of row r of the episode bank with the normalised row r. -/
theorem out_at (r : Fin 16384) :
    val_main_v43 (F := Ideal) x0 x1 x2 x3 x4 x5 x6 x7 (ix1 r)
      = rowOut bySqrt Z NN EPS TINY (rowOf x1 r) (rowOf x0 r) (matOf x2) (vecOf x3) (matOf x4) (vecOf x5) (vecOf x6) (vecOf x7) := by
  rw [val_main_v43_apply, val_main_v41_apply, val_main_v42_apply, val_main_v36_apply, val_main_v34_apply, val_main_call0_v1_apply,
    val_main_v35_apply, val_main_v39_apply, val_main_v37_apply, val_main_call1_v1_apply, val_main_v38_apply]
  simp only [idx_v41, idx_c0, idx_c1, val_main_v40_apply, val_main_call0_v0_apply, val_main_call1_v0_apply, normed_at]
  show Ideal.div (Ideal.ofBits .f32 0x00000000#32 + _)
    (max (Ideal.sqrt (Ideal.ofBits .f32 0x00000000#32 + _)) _ * max (Ideal.sqrt (Ideal.ofBits .f32 0x00000000#32 + _)) _) = _
  rw [Ideal.ofBits_zero_f32, zero_add, zero_add, zero_add]
  rfl

end Cert.ReferenceIdeal.Row

end
-- ==== Proof.LibKeepdims.lean ====
/-
  Layout operations of a row-wise reduction kept as a column, read at an index written by coordinates:
  a block with two leading unit axes viewed as a matrix and back, a vector viewed as a one-column matrix,
  and a one-column matrix broadcast along its rows.  Each is the general read-at-an-index lemma of the
  layout operation with the operand's index already chosen.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector kept as a column and broadcast along the rows reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibKeepdims

end
-- ==== Proof.LibRowReduce.lean ====
/-
  Reductions along the rows of a matrix, and two layout operations around them, read at an index written by
  coordinates, at the ideal values and over any extents.

  * Reducing an [a, b] matrix over its second axis leaves one value per row. Putting column k back into the reduced
    index p gives (p, k); so a sum over that axis is the sum of the row's entries, and a maximum over it is the fold of
    max over the row's entries starting from the accumulator's value. The fold is kept as a fold: max is commutative and
    associative, so the order in which either program visits the row does not matter, and nothing here evaluates it.
    The same reading holds for the host's one-operand reduce with a max body.
  * Three one-column matrices joined side by side give an [a, 3] matrix whose column k is the k-th of them.
  * An [a, b, 1, 1] array viewed as an [a, b] matrix reads, at (i, j), the operand at (i, j, 0, 0).
-/
import Idealize.ShloMosaic.PureOps.Ideal.Laws
import Idealize.ShloMosaic.Lib.Pipeline.Value
import Idealize.ShloMosaic.Lib.ValueIdx

noncomputable section

namespace Cert.LibRowReduce

open Idealize.ShloMosaic Idealize.ShloMosaic.ValueIdx

/-- The reduced index `p` with column `k` put back on the second axis is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A lane sum over the second axis of an [a, b] matrix, at row `p`: the sum of the row's entries. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) src acc h hφ hacc (ix1 p) = ∑ k : Fin b, src (ix2 p k) := by
  refine (Ideal.multiReduction_add_single src acc h hφ hacc (ix1 p)).trans ?_
  exact Finset.sum_congr rfl fun k _ => congrArg src (lift_row h p k)

/-- A lane maximum over the second axis of an [a, b] matrix, at row `p`: the fold of max over the row's entries from the
    accumulator's value. -/
theorem rowMax_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) (fun k => src (ix2 p k)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits φ acc) f (Finset.univ : Finset (Fin b))) hf

/-- The host's reduce with a max body over the second axis of an [a, b] matrix, at row `p`: the same fold, from the
    initial value's one element. -/
theorem hostRowMax_apply {a b : ℕ} {φ : FTy} {u : Shape} (x : FVec Ideal (⟨2, ![a, b]⟩ : Shape) φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduce FloatOps.maximumf x init h' hu (ix1 p)
      = (Finset.univ : Finset (Fin b)).fold max (init (Shape.Idx.first hu)) (fun k => x (ix2 p k)) := by
  refine (Host.reduce_eq_fold_single FloatOps.maximumf x init h' h hu (ix1 p)).trans ?_
  have hf : (x ∘ h.lift (ix1 p)) = fun k : Fin b => x (ix2 p k) := funext fun k => congrArg x (lift_row h p k)
  exact congrArg (fun f => Finset.fold max (init (Shape.Idx.first hu)) f (Finset.univ : Finset (Fin b))) hf

variable {α : Type}

/-- Three columns joined side by side: column `k` of the result is the `k`-th column. -/
theorem columnTriple_apply {a : ℕ} (x y z : (⟨2, ![a, 1]⟩ : Shape).Idx → α)
    (h : Shape.Concatenates [(⟨2, ![a, 1]⟩ : Shape), ⟨2, ![a, 1]⟩, ⟨2, ![a, 1]⟩] ⟨2, ![a, 3]⟩ (1 : Fin 2)) (p : Fin a) (k : Fin 3) :
    concatenate ⟨2, ![a, 3]⟩ (1 : Fin 2) [⟨⟨2, ![a, 1]⟩, x⟩, ⟨⟨2, ![a, 1]⟩, y⟩, ⟨⟨2, ![a, 1]⟩, z⟩] h (ix2 p k)
      = (![x, y, z] k) (ix2 p (0 : Fin 1)) :=
  concatenate_ofFn_unit_apply (t := ⟨2, ![a, 3]⟩) (s₁ := ⟨2, ![a, 1]⟩) (1 : Fin 2) (N := 3) (fun n => ![x, y, z] n) h rfl rfl
    (ix2 p k) k rfl (ix2 p (0 : Fin 1))
    (fun c hc => match c, hc with | ⟨0, _⟩, _ => rfl | ⟨1, _⟩, hc => absurd rfl hc)

/-- An `[a, b, 1, 1]` array cast to `[a, b]` reads, at `(i, j)`, the operand at `(i, j, 0, 0)`. -/
theorem shapeCast_ab11_ab_apply {a b : ℕ} (x : (⟨4, ![a, b, 1, 1]⟩ : Shape).Idx → α)
    (h : (⟨4, ![a, b, 1, 1]⟩ : Shape).ShapeCasts ⟨2, ![a, b]⟩) (i : Fin a) (j : Fin b) :
    shapeCast ⟨2, ![a, b]⟩ x h (ix2 i j) = x (ix4 i j (0 : Fin 1) (0 : Fin 1)) :=
  shapeCast_apply x h _ _ (by
    rw [Shape.rowMajor_val_four, Shape.rowMajor_val_two]
    show ((i.val * b + j.val) * 1 + 0) * 1 + 0 = i.val * b + j.val
    omega)

end Cert.LibRowReduce

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.KerRow.lean ====
/-
  The kernel's body, row by row.  The body's two stored values are first restated over a small vocabulary —
  an affine layer, the rectifier, the row mean kept as a column, the centred block, the spread, the scaled
  block, the row-wise inner product and the cosine — and each of these is then read at an index written by
  coordinates: entry (p, j) of a block stage depends on row p of the context block, on the weights and on the
  vectors only, a column stage (p, 0) on row p only, and the stored row at (0, p) is the cosine of row p of
  the episode block with the normalised row p.
-/
import proofs.«116944_g9423158248250_cont_9to1_m_283_2_alg».proof.Proof.Gen.KernelIdeal.Skeleton
import proofs.«116944_g9423158248250_cont_9to1_m_283_2_alg».proof.Proof.Spec
import proofs.«116944_g9423158248250_cont_9to1_m_283_2_alg».proof.Proof.LibKeepdims
import proofs.«116944_g9423158248250_cont_9to1_m_283_2_alg».proof.Proof.LibRowReduce
import proofs.«116944_g9423158248250_cont_9to1_m_283_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.Spec

/-! ## The literals -/

abbrev Z : EReal := Ideal.ofBits .f32 0x00000000#32
abbrev NN : EReal := Ideal.ofBits .f32 0x44800000#32
abbrev EPS : EReal := Ideal.ofBits .f32 0x3727C5AC#32
abbrev TINY : EReal := Ideal.ofBits .f32 0x322BCC77#32

/-! ## The vocabulary -/

/-- An affine layer on a block of rows: the block times the weights, plus the bias row on every row. -/
def layer (x : FVec Ideal S512x1024 .f32) (w : Vec Ideal S1024x1024 .bf16) (b : Vec Ideal S1x1024 .f32) : FVec Ideal S512x1024 .f32 :=
  addf (matmul dot_S512x1024_S1024x1024_S512x1024_1_0_0_1_n_n none (truncf .bf16 x bitsLt_bf16_f32)
      (shapeCast S1024x1024 w shapeCasts_S1024x1024_S1024x1024 : FVec Ideal S1024x1024 .bf16) (constant S512x1024 .f32 0x00000000#32))
    (broadcastTo S512x1024 (shapeCast S1x1024 b shapeCasts_S1x1024_S1x1024 : FVec Ideal S1x1024 .f32) broadcasts_S1x1024_S512x1024)

/-- The rectifier: the maximum with the zero literal. -/
def rect (h : FVec Ideal S512x1024 .f32) : FVec Ideal S512x1024 .f32 :=
  maximumf h (broadcast S512x1024 (Scalar.ofBits .f32 0x00000000#32))

/-- The mean of each row, kept as a column. -/
def rowMean (h : FVec Ideal S512x1024 .f32) : FVec Ideal S512x1 .f32 :=
  divf (shapeCast S512x1 (multiReduction .add [1] S512 h 0x00000000#32 reduces_S512x1024_S512 (.inl rfl) rfl) shapeCasts_S512_S512x1)
    (broadcast S512x1 (Scalar.ofBits .f32 0x44800000#32))

/-- The block with each row's mean taken off. -/
def cen (h : FVec Ideal S512x1024 .f32) : FVec Ideal S512x1024 .f32 :=
  subf h (broadcastTo S512x1024 (rowMean h) broadcasts_S512x1_S512x1024)

/-- The spread of each row: the mean square of the centred row, plus ε. -/
def spr (h : FVec Ideal S512x1024 .f32) : FVec Ideal S512x1 .f32 :=
  addf (rowMean (mulf (cen h) (cen h))) (broadcast S512x1 (Scalar.ofBits .f32 0x3727C5AC#32))

/-- The centred block times the reciprocal square root of its row's spread, times the scale row. -/
def scaled (h : FVec Ideal S512x1024 .f32) (g : Vec Ideal S1x1024 .f32) : FVec Ideal S512x1024 .f32 :=
  mulf (mulf (cen h) (broadcastTo S512x1024 (rsqrt (spr h)) broadcasts_S512x1_S512x1024))
    (broadcastTo S512x1024 (shapeCast S1x1024 g shapeCasts_S1x1024_S1x1024 : FVec Ideal S1x1024 .f32) broadcasts_S1x1024_S512x1024)

/-- The shift row added on every row. -/
def shifted (s : FVec Ideal S512x1024 .f32) (bt : Vec Ideal S1x1024 .f32) : FVec Ideal S512x1024 .f32 :=
  addf s (broadcastTo S512x1024 (shapeCast S1x1024 bt shapeCasts_S1x1024_S1x1024 : FVec Ideal S1x1024 .f32) broadcasts_S1x1024_S512x1024)

/-- The inner product of corresponding rows of two blocks. -/
def rowDot (a b : FVec Ideal S512x1024 .f32) : FVec Ideal S512 .f32 :=
  multiReduction .add [1] S512 (mulf a b) 0x00000000#32 reduces_S512x1024_S512 (.inl rfl) rfl

/-- The cosine of corresponding rows, as a one-row block. -/
def cosRows (e c : FVec Ideal S512x1024 .f32) : FVec Ideal S1x512 .f32 :=
  shapeCast S1x512
    (divf (rowDot e c)
      (mulf (maximumf (sqrt (rowDot e e)) (broadcast S512 (Scalar.ofBits .f32 0x322BCC77#32)))
        (maximumf (sqrt (rowDot c c)) (broadcast S512 (Scalar.ofBits .f32 0x322BCC77#32)))))
    shapeCasts_S512_S1x512

/-- The first stored value is the scaled second layer. -/
theorem pay2_eq (x0 : Vec Ideal S512x1024 .f32) (w1 : Vec Ideal S1024x1024 .bf16) (b1 : Vec Ideal S1x1024 .f32)
    (w2 : Vec Ideal S1024x1024 .bf16) (b2 g : Vec Ideal S1x1024 .f32) :
    k0_pay2 x0 w1 b1 w2 b2 g = scaled (layer (rect (layer x0 w1 b1)) w2 b2) g := rfl

/-- The second stored value is the cosine of the episode block's rows with the shifted rows. -/
theorem pay1_eq (s : FVec Ideal S512x1024 .f32) (bt : Vec Ideal S1x1024 .f32) (e : Vec Ideal S512x1024 .f32) :
    k0_pay1 s bt e = cosRows e (shifted s bt) := rfl

/-! ## Each piece at an index -/

/-- A bias row broadcast over the block's rows reads its entry of the column. -/
theorem biasRow_at (b : Vec Ideal S1x1024 .f32) (p : Fin 512) (j : Fin 1024) :
    broadcastTo S512x1024 (shapeCast S1x1024 b shapeCasts_S1x1024_S1x1024 : FVec Ideal S1x1024 .f32) broadcasts_S1x1024_S512x1024 (ix2 p j) = b (ix2 (0 : Fin 1) j) := by
  rw [broadcastTo_1b_ab_apply, shapeCast_self]

theorem dot_lhs0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

theorem dot_rhs1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- An affine layer at (p, j): row p of the block against column j of the weights, plus the bias's entry j. -/
theorem layer_at (x : FVec Ideal S512x1024 .f32) (w : Vec Ideal S1024x1024 .bf16) (b : Vec Ideal S1x1024 .f32) (p : Fin 512) (j : Fin 1024) :
    layer x w b (ix2 p j) = (∑ k : Fin 1024, x (ix2 p k) * w (ix2 k j)) + b (ix2 (0 : Fin 1) j) := by
  unfold layer
  rw [addf_apply, biasRow_at]
  refine congrArg (· + b (ix2 (0 : Fin 1) j)) ?_
  refine (PlainDot.matmul_zero_ix2 dot_S512x1024_S1024x1024_S512x1024_1_0_0_1_n_n rfl rfl rfl rfl dot_lhs0 dot_rhs1 none _ _ p j).trans ?_
  rw [shapeCast_self]
  rfl

/-- The rectifier at an index. -/
theorem rect_at (h : FVec Ideal S512x1024 .f32) (i : S512x1024.Idx) : rect h i = max (h i) Z := rfl

/-- A sum along the rows of a block, at row p: the sum of the row's entries. -/
theorem laneSum_at (src : FVec Ideal S512x1024 .f32) (p : Fin 512) :
    multiReduction .add [1] S512 src 0x00000000#32 reduces_S512x1024_S512 (.inl rfl) rfl (ix1 p) = ∑ j : Fin 1024, src (ix2 p j) :=
  LibRowReduce.rowSum_apply src 0x00000000#32 reduces_S512x1024_S512 (.inl rfl) rfl p

/-- The row mean at (p, 0): the row's sum divided by the row length. -/
theorem rowMean_at (h : FVec Ideal S512x1024 .f32) (p : Fin 512) (u : Fin 1) :
    rowMean h (ix2 p u) = mean NN (fun j : Fin 1024 => h (ix2 p j)) := by
  unfold rowMean mean
  rw [divf_apply, LibKeepdims.shapeCast_a_a1_apply]
  exact congrArg (fun s => Ideal.div s NN) (laneSum_at h p)

/-- The centred block at (p, j). -/
theorem cen_at (h : FVec Ideal S512x1024 .f32) (p : Fin 512) (j : Fin 1024) :
    cen h (ix2 p j) = centred NN (fun j : Fin 1024 => h (ix2 p j)) j := by
  unfold cen centred
  rw [subf_apply, LibKeepdims.broadcastTo_a1_ab_apply, rowMean_at]

/-- The spread at (p, 0). -/
theorem spr_at (h : FVec Ideal S512x1024 .f32) (p : Fin 512) (u : Fin 1) :
    spr h (ix2 p u) = spread NN EPS (fun j : Fin 1024 => h (ix2 p j)) := by
  unfold spr spread
  rw [addf_apply, rowMean_at]
  simp only [mulf_apply, cen_at]
  rfl

/-- The scaled and shifted block at (p, j): the normalised row's entry j. -/
theorem shifted_scaled_at (h : FVec Ideal S512x1024 .f32) (g bt : Vec Ideal S1x1024 .f32) (p : Fin 512) (j : Fin 1024) :
    shifted (scaled h g) bt (ix2 p j)
      = normed byRsqrt NN EPS (fun j : Fin 1024 => h (ix2 p j)) (fun j => g (ix2 (0 : Fin 1) j)) (fun j => bt (ix2 (0 : Fin 1) j)) j := by
  unfold shifted scaled normed byRsqrt
  rw [addf_apply, biasRow_at, mulf_apply, biasRow_at, mulf_apply, cen_at, LibKeepdims.broadcastTo_a1_ab_apply]
  show _ * Ideal.rsqrt (spr h (ix2 p (0 : Fin 1))) * _ + _ = _
  rw [spr_at]

/-- The inner product of rows p. -/
theorem rowDot_at (a b : FVec Ideal S512x1024 .f32) (p : Fin 512) :
    rowDot a b (ix1 p) = ∑ j : Fin 1024, a (ix2 p j) * b (ix2 p j) := by
  unfold rowDot
  exact laneSum_at (mulf a b) p

/-- The cosine block at (0, p). -/
theorem cosRows_at (e c : FVec Ideal S512x1024 .f32) (u : Fin 1) (p : Fin 512) :
    cosRows e c (ix2 u p) = cosine TINY (fun j : Fin 1024 => e (ix2 p j)) (fun j => c (ix2 p j)) := by
  unfold cosRows cosine
  rw [shapeCast_a_1a_apply, divf_apply, mulf_apply, maximumf_apply, maximumf_apply, rowDot_at]
  show Ideal.div _ (max (Ideal.sqrt (rowDot e e (ix1 p))) _ * max (Ideal.sqrt (rowDot c c (ix1 p))) _) = _
  rw [rowDot_at, rowDot_at]
  rfl

/-- The stored row at (0, p): one row's result, from row p of the context and episode blocks. -/
theorem stored_at (x0 : Vec Ideal S512x1024 .f32) (w1 : Vec Ideal S1024x1024 .bf16) (b1 : Vec Ideal S1x1024 .f32)
    (w2 : Vec Ideal S1024x1024 .bf16) (b2 g bt : Vec Ideal S1x1024 .f32) (e : Vec Ideal S512x1024 .f32) (u : Fin 1) (p : Fin 512) :
    k0_pay1 (k0_pay2 x0 w1 b1 w2 b2 g) bt e (ix2 u p)
      = rowOut byRsqrt Z NN EPS TINY (fun k : Fin 1024 => x0 (ix2 p k)) (fun k : Fin 1024 => e (ix2 p k))
          (fun k j : Fin 1024 => w1 (ix2 k j)) (fun j : Fin 1024 => b1 (ix2 (0 : Fin 1) j))
          (fun k j : Fin 1024 => w2 (ix2 k j)) (fun j : Fin 1024 => b2 (ix2 (0 : Fin 1) j))
          (fun j : Fin 1024 => g (ix2 (0 : Fin 1) j)) (fun j : Fin 1024 => bt (ix2 (0 : Fin 1) j)) := by
  rw [pay2_eq, pay1_eq, cosRows_at]
  unfold rowOut
  congr 1
  funext j
  rw [shifted_scaled_at]
  congr 1
  funext j'
  rw [layer_at]
  unfold pre
  congr 2
  funext k
  rw [rect_at, layer_at]
  rfl

end Cert.KernelIdeal.Row

end
-- ==== Proof.KerArray.lean ====
/-
  From the blocks to the whole result.  Grid point t works on rows 512·t … 512·t + 511: it reads those rows of
  the context and of the episode bank, the whole weight matrices and the four vectors (each kept as a one-row
  matrix by the host), and writes entries 512·t … 512·t + 511 of a one-row result.  The 32 blocks tile the row,
  so after the run entry r of the row is the row function of row r of the arguments; the host then reads the
  row as a vector.
-/
import proofs.«116944_g9423158248250_cont_9to1_m_283_2_alg».proof.Proof.Gen.KernelIdeal.Frame
import proofs.«116944_g9423158248250_cont_9to1_m_283_2_alg».proof.Proof.KerRow
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.Spec Cert.KernelIdeal.Row

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

/-- The first weight matrix as staged: the host's change of format is the identity on the extended reals. -/
theorem V_w1 (c : Dev nD) : (V m c main_v0 : S1024x1024.Idx → EReal) = (m ((c : Thread nD τ).loc main_arg2) : S1024x1024.Idx → EReal) := by
  show StableHlo.after hostOps0 (fun b => m (c, b)) (Proc.devRef .tc main_v0) = _
  after_results
  rfl

/-- The second weight matrix as staged. -/
theorem V_w2 (c : Dev nD) : (V m c main_v1 : S1024x1024.Idx → EReal) = (m ((c : Thread nD τ).loc main_arg4) : S1024x1024.Idx → EReal) := by
  show StableHlo.after hostOps0 (fun b => m (c, b)) (Proc.devRef .tc main_v1) = _
  after_results
  rfl

/-- The first bias as staged: the vector viewed as one row. -/
theorem V_b1 (c : Dev nD) : (V m c main_v2 : S1x1024.Idx → EReal)
    = shapeCast S1x1024 (m ((c : Thread nD τ).loc main_arg3) : S1024.Idx → EReal) shapeCasts_S1024_S1x1024 := by
  show StableHlo.after hostOps0 (fun b => m (c, b)) (Proc.devRef .tc main_v2) = _
  after_results
  rfl

theorem V_b2 (c : Dev nD) : (V m c main_v3 : S1x1024.Idx → EReal)
    = shapeCast S1x1024 (m ((c : Thread nD τ).loc main_arg5) : S1024.Idx → EReal) shapeCasts_S1024_S1x1024 := by
  show StableHlo.after hostOps0 (fun b => m (c, b)) (Proc.devRef .tc main_v3) = _
  after_results
  rfl

theorem V_g (c : Dev nD) : (V m c main_v4 : S1x1024.Idx → EReal)
    = shapeCast S1x1024 (m ((c : Thread nD τ).loc main_arg6) : S1024.Idx → EReal) shapeCasts_S1024_S1x1024 := by
  show StableHlo.after hostOps0 (fun b => m (c, b)) (Proc.devRef .tc main_v4) = _
  after_results
  rfl

theorem V_bt (c : Dev nD) : (V m c main_v5 : S1x1024.Idx → EReal)
    = shapeCast S1x1024 (m ((c : Thread nD τ).loc main_arg7) : S1024.Idx → EReal) shapeCasts_S1024_S1x1024 := by
  show StableHlo.after hostOps0 (fun b => m (c, b)) (Proc.devRef .tc main_v5) = _
  after_results
  rfl

/-! ## Where each window's block sits -/

/-- The printed index maps over the 32 grid points: the two row windows and the result window move with the point,
    the other windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = t.val :=
  (by decide +kernel : ∀ t : Fin grid0.N, _)

/-! ## Each window's block read off the argument arrays -/

/-- Window 0's block at point t is rows 512·t … 512·t + 511 of the context. -/
theorem iblk0_at (c : Dev nD) (t : Fin cfg0.N) (p : Fin 512) (k : Fin 1024) (r : Fin 16384) (hr : r.val = 512 * t.val + p.val) :
    (iblk m c 0 t : Vec Ideal S512x1024 .f32) (ix2 p k) = (m ((c : Thread nD τ).loc main_arg1) : S16384x1024.Idx → EReal) (ix2 r k) := by
  have e0 : win0_0.index t (0 : Fin 2) = t.val := by have := idx_facts t; tauto
  have e1 : win0_0.index t (1 : Fin 2) = 0 := by have := idx_facts t; tauto
  unfold iblk
  rw [View.read_apply]
  refine (congrFun (V_main_arg1 m c) _).trans ?_
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- Window 1's block at point t is rows 512·t … 512·t + 511 of the episode bank. -/
theorem iblk1_at (c : Dev nD) (t : Fin cfg0.N) (p : Fin 512) (k : Fin 1024) (r : Fin 16384) (hr : r.val = 512 * t.val + p.val) :
    (iblk m c 1 t : Vec Ideal S512x1024 .f32) (ix2 p k) = (m ((c : Thread nD τ).loc main_arg0) : S16384x1024.Idx → EReal) (ix2 r k) := by
  have e0 : win0_1.index t (0 : Fin 2) = t.val := by have := idx_facts t; tauto
  have e1 : win0_1.index t (1 : Fin 2) = 0 := by have := idx_facts t; tauto
  unfold iblk
  rw [View.read_apply]
  refine (congrFun (V_main_arg0 m c) _).trans ?_
  refine congrArg _ (funext fun a => Fin.ext ?_)
  match a with
  | ⟨0, _⟩ => show win0_1.index t (0 : Fin 2) * 512 + 1 * p.val = r.val; rw [e0, hr]; omega
  | ⟨1, _⟩ => show win0_1.index t (1 : Fin 2) * 1024 + 1 * k.val = k.val; rw [e1]; omega

/-- Window 2's block at every point is the whole of the first weight matrix. -/
theorem iblk2_at (c : Dev nD) (t : Fin cfg0.N) (k j : Fin 1024) :
    (iblk m c 2 t : Vec Ideal S1024x1024 .bf16) (ix2 k j) = (m ((c : Thread nD τ).loc main_arg2) : S1024x1024.Idx → EReal) (ix2 k j) := by
  have e0 : win0_2.index t (0 : Fin 2) = 0 := by have := idx_facts t; tauto
  have e1 : win0_2.index t (1 : Fin 2) = 0 := by have := idx_facts t; tauto
  unfold iblk
  rw [View.read_apply]
  refine (congrFun (V_w1 m c) _).trans ?_
  refine congrArg _ (funext fun a => Fin.ext ?_)
  match a with
  | ⟨0, _⟩ => show win0_2.index t (0 : Fin 2) * 1024 + 1 * k.val = k.val; rw [e0]; omega
  | ⟨1, _⟩ => show win0_2.index t (1 : Fin 2) * 1024 + 1 * j.val = j.val; rw [e1]; omega

/-- Window 4's block at every point is the whole of the second weight matrix. -/
theorem iblk4_at (c : Dev nD) (t : Fin cfg0.N) (k j : Fin 1024) :
    (iblk m c 4 t : Vec Ideal S1024x1024 .bf16) (ix2 k j) = (m ((c : Thread nD τ).loc main_arg4) : S1024x1024.Idx → EReal) (ix2 k j) := by
  have e0 : win0_4.index t (0 : Fin 2) = 0 := by have := idx_facts t; tauto
  have e1 : win0_4.index t (1 : Fin 2) = 0 := by have := idx_facts t; tauto
  unfold iblk
  rw [View.read_apply]
  refine (congrFun (V_w2 m c) _).trans ?_
  refine congrArg _ (funext fun a => Fin.ext ?_)
  match a with
  | ⟨0, _⟩ => show win0_4.index t (0 : Fin 2) * 1024 + 1 * k.val = k.val; rw [e0]; omega
  | ⟨1, _⟩ => show win0_4.index t (1 : Fin 2) * 1024 + 1 * j.val = j.val; rw [e1]; omega

/-- Window 3's block at every point is the first bias as one row. -/
theorem iblk3_at (c : Dev nD) (t : Fin cfg0.N) (j : Fin 1024) :
    (iblk m c 3 t : Vec Ideal S1x1024 .f32) (ix2 (0 : Fin 1) j) = (m ((c : Thread nD τ).loc main_arg3) : S1024.Idx → EReal) (ix1 j) := by
  have e0 : win0_3.index t (0 : Fin 2) = 0 := by have := idx_facts t; tauto
  have e1 : win0_3.index t (1 : Fin 2) = 0 := by have := idx_facts t; tauto
  unfold iblk
  rw [View.read_apply]
  refine (congrFun (V_b1 m c) _).trans ?_
  refine (congrArg _ (funext fun a => Fin.ext ?_)).trans (shapeCast_a_1a_apply _ shapeCasts_S1024_S1x1024 (0 : Fin 1) j)
  match a with
  | ⟨0, _⟩ => show win0_3.index t (0 : Fin 2) * 1 + 1 * 0 = 0; rw [e0]
  | ⟨1, _⟩ => show win0_3.index t (1 : Fin 2) * 1024 + 1 * j.val = j.val; rw [e1]; omega

/-- Window 5's block at every point is the second bias as one row. -/
theorem iblk5_at (c : Dev nD) (t : Fin cfg0.N) (j : Fin 1024) :
    (iblk m c 5 t : Vec Ideal S1x1024 .f32) (ix2 (0 : Fin 1) j) = (m ((c : Thread nD τ).loc main_arg5) : S1024.Idx → EReal) (ix1 j) := by
  have e0 : win0_5.index t (0 : Fin 2) = 0 := by have := idx_facts t; tauto
  have e1 : win0_5.index t (1 : Fin 2) = 0 := by have := idx_facts t; tauto
  unfold iblk
  rw [View.read_apply]
  refine (congrFun (V_b2 m c) _).trans ?_
  refine (congrArg _ (funext fun a => Fin.ext ?_)).trans (shapeCast_a_1a_apply _ shapeCasts_S1024_S1x1024 (0 : Fin 1) j)
  match a with
  | ⟨0, _⟩ => show win0_5.index t (0 : Fin 2) * 1 + 1 * 0 = 0; rw [e0]
  | ⟨1, _⟩ => show win0_5.index t (1 : Fin 2) * 1024 + 1 * j.val = j.val; rw [e1]; omega

/-- Window 6's block at every point is the scale as one row. -/
theorem iblk6_at (c : Dev nD) (t : Fin cfg0.N) (j : Fin 1024) :
    (iblk m c 6 t : Vec Ideal S1x1024 .f32) (ix2 (0 : Fin 1) j) = (m ((c : Thread nD τ).loc main_arg6) : S1024.Idx → EReal) (ix1 j) := by
  have e0 : win0_6.index t (0 : Fin 2) = 0 := by have := idx_facts t; tauto
  have e1 : win0_6.index t (1 : Fin 2) = 0 := by have := idx_facts t; tauto
  unfold iblk
  rw [View.read_apply]
  refine (congrFun (V_g m c) _).trans ?_
  refine (congrArg _ (funext fun a => Fin.ext ?_)).trans (shapeCast_a_1a_apply _ shapeCasts_S1024_S1x1024 (0 : Fin 1) j)
  match a with
  | ⟨0, _⟩ => show win0_6.index t (0 : Fin 2) * 1 + 1 * 0 = 0; rw [e0]
  | ⟨1, _⟩ => show win0_6.index t (1 : Fin 2) * 1024 + 1 * j.val = j.val; rw [e1]; omega

/-- Window 7's block at every point is the shift as one row. -/
theorem iblk7_at (c : Dev nD) (t : Fin cfg0.N) (j : Fin 1024) :
    (iblk m c 7 t : Vec Ideal S1x1024 .f32) (ix2 (0 : Fin 1) j) = (m ((c : Thread nD τ).loc main_arg7) : S1024.Idx → EReal) (ix1 j) := by
  have e0 : win0_7.index t (0 : Fin 2) = 0 := by have := idx_facts t; tauto
  have e1 : win0_7.index t (1 : Fin 2) = 0 := by have := idx_facts t; tauto
  unfold iblk
  rw [View.read_apply]
  refine (congrFun (V_bt m c) _).trans ?_
  refine (congrArg _ (funext fun a => Fin.ext ?_)).trans (shapeCast_a_1a_apply _ shapeCasts_S1024_S1x1024 (0 : Fin 1) j)
  match a with
  | ⟨0, _⟩ => show win0_7.index t (0 : Fin 2) * 1 + 1 * 0 = 0; rw [e0]
  | ⟨1, _⟩ => show win0_7.index t (1 : Fin 2) * 1024 + 1 * j.val = j.val; rw [e1]; omega

/-! ## The result row -/

/-- Row r's result from the argument arrays. -/
def rowResult (c : Dev nD) (r : Fin 16384) : EReal :=
  rowOut byRsqrt Z NN EPS TINY
    (fun k : Fin 1024 => (m ((c : Thread nD τ).loc main_arg1) : S16384x1024.Idx → EReal) (ix2 r k))
    (fun k : Fin 1024 => (m ((c : Thread nD τ).loc main_arg0) : S16384x1024.Idx → EReal) (ix2 r k))
    (fun k j : Fin 1024 => (m ((c : Thread nD τ).loc main_arg2) : S1024x1024.Idx → EReal) (ix2 k j))
    (fun j : Fin 1024 => (m ((c : Thread nD τ).loc main_arg3) : S1024.Idx → EReal) (ix1 j))
    (fun k j : Fin 1024 => (m ((c : Thread nD τ).loc main_arg4) : S1024x1024.Idx → EReal) (ix2 k j))
    (fun j : Fin 1024 => (m ((c : Thread nD τ).loc main_arg5) : S1024.Idx → EReal) (ix1 j))
    (fun j : Fin 1024 => (m ((c : Thread nD τ).loc main_arg6) : S1024.Idx → EReal) (ix1 j))
    (fun j : Fin 1024 => (m ((c : Thread nD τ).loc main_arg7) : S1024.Idx → EReal) (ix1 j))

/-- The one-row array the region leaves: entry (0, r) is row r's result. -/
def rowArray (c : Dev nD) : S1x16384.Idx → EReal := fun i => rowResult m c (i 1)

/-- What point t writes back is block t of the result row. -/
theorem flushed_eq (c : Dev nD) (t : Fin cfg0.N) :
    (dats m 0 c).flushed 8 t = ((cfg0.win 8).blk t).view.read (Elt Ideal) (rowArray m c) := by
  show (cfg0.win 8).cut (grid0.coords t) ((dats m 0 c).after 8 t) = _
  rw [after0_8]
  unfold out0_8
  rw [View.canon_unit_zero hz]
  simp only [View.ld_unit_zero (S := S512x1024) hz, View.ld_unit_zero (S := S1024x1024) hz, View.ld_unit_zero (S := S1x1024) hz]
  have e81 : win0_8.index t (1 : Fin 2) = t.val := by have := idx_facts t; tauto
  funext y
  obtain ⟨u, p, rfl⟩ : ∃ (u : Fin 1) (p : Fin 512), y = ix2 u p := ⟨y 0, y 1, eq_ix2 y⟩
  have hr : ((((cfg0.win 8).blk t).view.emb (ix2 u p)) (1 : Fin 2)).val = 512 * t.val + p.val := by
    show win0_8.index t (1 : Fin 2) * 512 + 1 * p.val = _
    rw [e81]; omega
  refine (stored_at _ _ _ _ _ _ _ _ u p).trans ?_
  show _ = rowResult m c ((((cfg0.win 8).blk t).view.emb (ix2 u p)) (1 : Fin 2))
  unfold rowResult
  simp only [fun k => iblk0_at m c t p k _ hr, fun k => iblk1_at m c t p k _ hr, iblk2_at m c t, iblk3_at m c t,
    iblk4_at m c t, iblk5_at m c t, iblk6_at m c t, iblk7_at m c t]

/-- An index of the result row is in point t's block iff its coordinates are in the block's ranges. -/
theorem mem_blk (t : Fin cfg0.N) (i : S1x16384.Idx) :
    i ∈ ((cfg0.win 8).blk t).view.set ↔ ∀ a : Fin 2, win0_8.index t a * S1x512.size a ≤ (i a).val ∧ (i a).val < win0_8.index t a * S1x512.size a + S1x512.size a := by
  show i ∈ ((View.whole main_v6).slice (win0_8.rect t)).set ↔ _
  rw [View.set_slice_whole, Rect.mem_set_unit]
  exact Iff.rfl

/-- Every entry of the result row is in some point's block: entry r in that of point r / 512. -/
theorem cover (i : S1x16384.Idx) : ∃ t : Fin cfg0.N, (cfg0.win 8).flush t = true ∧ i ∈ ((cfg0.win 8).blk t).view.set := by
  have hi0 : (i 0).val < 1 := (i 0).isLt
  have hi1 : (i 1).val < 16384 := (i 1).isLt
  have hN : cfg0.N = 32 := N_0
  have ht : (i 1).val / 512 < cfg0.N := by rw [hN]; omega
  have e80 : win0_8.index ⟨(i 1).val / 512, ht⟩ (0 : Fin 2) = 0 := by have := idx_facts ⟨(i 1).val / 512, ht⟩; tauto
  have e81 : win0_8.index ⟨(i 1).val / 512, ht⟩ (1 : Fin 2) = (i 1).val / 512 := by have := idx_facts ⟨(i 1).val / 512, ht⟩; tauto
  refine ⟨⟨(i 1).val / 512, ht⟩, flush0_8 _, ?_⟩
  rw [mem_blk]
  intro a
  match a with
  | ⟨0, _⟩ =>
    show win0_8.index ⟨(i 1).val / 512, ht⟩ (0 : Fin 2) * 1 ≤ (i 0).val ∧ (i 0).val < win0_8.index ⟨(i 1).val / 512, ht⟩ (0 : Fin 2) * 1 + 1
    rw [e80]; omega
  | ⟨1, _⟩ =>
    show win0_8.index ⟨(i 1).val / 512, ht⟩ (1 : Fin 2) * 512 ≤ (i 1).val ∧ (i 1).val < win0_8.index ⟨(i 1).val / 512, ht⟩ (1 : Fin 2) * 512 + 512
    rw [e81]; omega

/-- So the region leaves the result row. -/
theorem final (c : Dev nD) : (dats m 0 c).arrAt 8 cfg0.N = rowArray m c :=
  (dats m 0 c).arrAt_eq_of_cover 8 (rowArray m c) (fun t _ => flushed_eq m c t) cover

/-- The program's result: entry r is row r's result. -/
def result (c : Dev nD) : S16384.Idx → EReal := fun i => rowResult m c (i 0)

/-- The host reads the one-row array as a vector. -/
theorem tail_eq (c : Dev nD) :
    (Pipeline.afterTail₀ cfgs (dats m) 0 (V0 m) [hostOps1] c main_v7 : S16384.Idx → EReal) = result m c := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.tc.devRef main_v6) = rowArray m c :=
    (Pipeline.withArrays_arr spec0 launch0.win.arr_inj c _ _ 8).trans (final m c)
  funext i
  obtain ⟨r, rfl⟩ : ∃ r : Fin 16384, i = ix1 r := ⟨i 0, eq_ix1 i⟩
  show shapeCast S16384 (Pipeline.withArrays (cfgs 0).spec c (V0 m c) (fun w => (dats m 0 c).arrAt w (cfgs 0).N) (Proc.tc.devRef main_v6))
    shapeCasts_S1x16384_S16384 (ix1 r) = _
  rw [hA, shapeCast_1a_a_apply]
  rfl

/-- The run, read: the result holds each row's result, and the arguments are unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v7 (Pipeline.mem_restRefs_of main_v7 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Hand

end
-- ==== Proof.lean ====
/-
  The certificate's five claims.

  Both programs compute, for every row r of the 16384 rows, one number from row r of the context, row r of the
  episode bank, the two weight matrices and the four vectors: the context row goes through two affine layers with a
  rectifier between them, is normalised (centred, scaled to unit spread with ε added to the mean square, then
  scaled by γ and shifted by β), and the result is the cosine of the angle between that row and the episode row,
  each norm bounded below by a tiny constant.

  The kernel does this 512 rows at a time and multiplies the centred row by the reciprocal square root of the
  spread; the reference does it for all rows at once and divides by the square root.  On the extended reals the
  two agree because the spread is positive: it is a mean of squares, which is never negative, plus a positive ε.
  Sums are sums on both sides (the host starts its sums from the zero literal, which is 0), a change of float
  format is the identity, and the matrix unit's product and the host's are the same contraction.

  The kernel's frames are the generated ones; the reference's frame is its generated run with the result dropped;
  the idealization rewrote nothing, so that claim is trivial.
-/
import proofs.«116944_g9423158248250_cont_9to1_m_283_2_alg».proof.Defs
import proofs.«116944_g9423158248250_cont_9to1_m_283_2_alg».proof.Proof.Gen.Kernel
import proofs.«116944_g9423158248250_cont_9to1_m_283_2_alg».proof.Proof.Gen.Kernel.Skeleton
import proofs.«116944_g9423158248250_cont_9to1_m_283_2_alg».proof.Proof.Gen.Kernel.Launch
import proofs.«116944_g9423158248250_cont_9to1_m_283_2_alg».proof.Proof.Gen.Kernel.Points
import proofs.«116944_g9423158248250_cont_9to1_m_283_2_alg».proof.Proof.Gen.Kernel.Frame
import proofs.«116944_g9423158248250_cont_9to1_m_283_2_alg».proof.Proof.Gen.KernelIdeal
import proofs.«116944_g9423158248250_cont_9to1_m_283_2_alg».proof.Proof.Gen.KernelIdeal.Skeleton
import proofs.«116944_g9423158248250_cont_9to1_m_283_2_alg».proof.Proof.Gen.KernelIdeal.Launch
import proofs.«116944_g9423158248250_cont_9to1_m_283_2_alg».proof.Proof.Gen.KernelIdeal.Points
import proofs.«116944_g9423158248250_cont_9to1_m_283_2_alg».proof.Proof.Gen.KernelIdeal.Frame
import proofs.«116944_g9423158248250_cont_9to1_m_283_2_alg».proof.Proof.Gen.ReferenceIdeal
import proofs.«116944_g9423158248250_cont_9to1_m_283_2_alg».proof.Proof.Gen.Pre_finite_inputs
import proofs.«116944_g9423158248250_cont_9to1_m_283_2_alg».proof.Proof.Gen.ReferenceIdeal.Run
import proofs.«116944_g9423158248250_cont_9to1_m_283_2_alg».proof.Proof.Gen.ReferenceIdeal.Read
import proofs.«116944_g9423158248250_cont_9to1_m_283_2_alg».proof.Proof.Spec
import proofs.«116944_g9423158248250_cont_9to1_m_283_2_alg».proof.Proof.Consts
import proofs.«116944_g9423158248250_cont_9to1_m_283_2_alg».proof.Proof.RefRow
import proofs.«116944_g9423158248250_cont_9to1_m_283_2_alg».proof.Proof.KerRow
import proofs.«116944_g9423158248250_cont_9to1_m_283_2_alg».proof.Proof.KerArray
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Entry r of the reference's result is row r's result in the kernel's form: the reference's own form, with the
    quotient by the square root turned into the product with the reciprocal square root. -/
theorem reference_row (x0 x1 : (⟨Cert.ReferenceIdeal.S16384x1024, .f32⟩ : BufTy).Contents (Elt Ideal))
    (x2 x4 : (⟨Cert.ReferenceIdeal.S1024x1024, .f32⟩ : BufTy).Contents (Elt Ideal))
    (x3 x5 x6 x7 : (⟨Cert.ReferenceIdeal.S1024, .f32⟩ : BufTy).Contents (Elt Ideal)) (r : Fin 16384) :
    Cert.ReferenceIdeal.Read.val_main_v43 (F := Ideal) x0 x1 x2 x3 x4 x5 x6 x7 (ix1 r)
      = Cert.Spec.rowOut Cert.Spec.byRsqrt Cert.ReferenceIdeal.Row.Z Cert.ReferenceIdeal.Row.NN Cert.ReferenceIdeal.Row.EPS
          Cert.ReferenceIdeal.Row.TINY (fun k : Fin 1024 => x1 (ix2 r k)) (fun k : Fin 1024 => x0 (ix2 r k))
          (fun k j : Fin 1024 => x2 (ix2 k j)) (fun j : Fin 1024 => x3 (ix1 j)) (fun k j : Fin 1024 => x4 (ix2 k j))
          (fun j : Fin 1024 => x5 (ix1 j)) (fun j : Fin 1024 => x6 (ix1 j)) (fun j : Fin 1024 => x7 (ix1 j)) :=
  (Cert.ReferenceIdeal.Row.out_at x0 x1 x2 x4 x3 x5 x6 x7 r).trans
    (Cert.Spec.rowOut_byRsqrt_eq_bySqrt (N := 1024) (by norm_num) Cert.Consts.ofBits_1024 Cert.Consts.ofBits_eps_pos _ _ _ _ _ _ _ _).symm

theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq]
  funext i
  obtain ⟨r, rfl⟩ : ∃ r : Fin 16384, i = ix1 r := ⟨i 0, eq_ix1 i⟩
  rw [reference_row]
  obtain ⟨h0, h1, h2, h3, h4, h5, h6, h7⟩ := hagree c
  rw [h0, h1, h2, h3, h4, h5, h6, h7]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
